-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x20000 : Shape := ⟨2, ![1024, 20000]⟩
abbrev S20000x128 : Shape := ⟨2, ![20000, 128]⟩
abbrev S_ : Shape := ⟨0, ![]⟩

class Facts : Prop where
  bcast_S_S1024x20000 : S_.BroadcastsInDim S1024x20000 (![] : Fin 0 → Fin S1024x20000.rank)
  reducesTo_S1024x20000_S_d0_1 : S1024x20000.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_

variable [Facts]

def fn {F : FTy → Type} [FloatOps F] (main_arg0 : FVec F S1024x20000 .f32) (main_arg1 : FVec F S20000x128 .f32) : IVec S_ 1 :=
  let main_v0 : FVec F S1024x20000 .f32 := Host.absf main_arg0
  let main_cst : FVec F S_ .f32 := constant S_ .f32 0x7F800000#32
  let main_v1 : FVec F S1024x20000 .f32 := broadcastInDim S1024x20000 ![] bcast_S_S1024x20000 main_cst
  let main_v2 : IVec S1024x20000 1 := cmpf .olt main_v0 main_v1
  let main_c : IVec S_ 1 := constantI S_ 1 1#1
  let main_v3 : IVec S_ 1 := (fun x v => Host.reduce IntOp.andi x v reducesTo_S1024x20000_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  main_v8
-- ==== Kernel.lean ====
abbrev S1024x20000 : Shape := ⟨2, ![1024, 20000]⟩
abbrev S20000x128 : Shape := ⟨2, ![20000, 128]⟩
abbrev S20000x1024 : Shape := ⟨2, ![20000, 1024]⟩
abbrev S1024x128 : Shape := ⟨2, ![1024, 128]⟩
abbrev S2000x1024 : Shape := ⟨2, ![2000, 1024]⟩
abbrev S2000x128 : Shape := ⟨2, ![2000, 128]⟩

abbrev nBuf : Space → Nat
  | .hbm => 4
  | .vmem => 5
  | .smem => 0
  | _ => 0

abbrev bufTy : (tb : Table) → Fin (tcTables nBuf tb) → BufTy
  | .hbm, ⟨0, _⟩ => ⟨S1024x20000, .f32⟩
  | .hbm, ⟨1, _⟩ => ⟨S20000x128, .f32⟩
  | .hbm, ⟨2, _⟩ => ⟨S20000x1024, .f32⟩
  | .hbm, ⟨3, _⟩ => ⟨S1024x128, .f32⟩
  | .local _ .vmem, ⟨0, _⟩ => ⟨S2000x1024, .f32⟩
  | .local _ .vmem, ⟨1, _⟩ => ⟨S2000x1024, .f32⟩
  | .local _ .vmem, ⟨2, _⟩ => ⟨S2000x128, .f32⟩
  | .local _ .vmem, ⟨3, _⟩ => ⟨S2000x128, .f32⟩
  | .local _ .vmem, ⟨4, _⟩ => ⟨S1024x128, .f32⟩
  | _, _ => ⟨S1024x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg0 : BitVec 32 := BitVec.ofNat 32 (i 0).val
  let c0_i32_4 : BitVec 32 := 0#32
  let v9 : BitVec 1 := Scalar.cmpi .ne arg0 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S1024x20000_S20000x1024_1_0 : S1024x20000.Transposes [1, 0] S20000x1024
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  dot_S2000x1024_S2000x128_S1024x128_0_0_1_1_n_n_wf : DotDims.WF S2000x1024 S2000x128 S1024x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S20000x1024.size a
  hwx0_0 : ∀ i : grid0.Coords, EltTy.bits .f32 = 32 ∨ (Rect.block (s := S20000x1024) S2000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S20000x128.size a
  hwx0_1 : ∀ i : grid0.Coords, EltTy.bits .f32 = 32 ∨ (Rect.block (s := S20000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)

variable [Facts₀]

def dot_S2000x1024_S2000x128_S1024x128_0_0_1_1_n_n : DotDims S2000x1024 S2000x128 S1024x128 where
  lhsContracting := [0]
  rhsContracting := [0]
  lhsNonContracting := [1]
  rhsNonContracting := [1]
  lhsBatch := []
  rhsBatch := []
  wf := dot_S2000x1024_S2000x128_S1024x128_0_0_1_1_n_n_wf

abbrev win0_0 : Pipeline.Window sig grid0 :=
  Pipeline.Window.ofSpec (Memref.whole main_v0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S1024x20000 : Shape := ⟨2, ![1024, 20000]⟩
abbrev S20000x128 : Shape := ⟨2, ![20000, 128]⟩
abbrev S20000 : Shape := ⟨1, ![20000]⟩
abbrev S_ : Shape := ⟨0, ![]⟩
abbrev S20000x1 : Shape := ⟨2, ![20000, 1]⟩
abbrev S1 : Shape := ⟨1, ![1]⟩
abbrev S1x1 : Shape := ⟨2, ![1, 1]⟩
abbrev S1024x128 : Shape := ⟨2, ![1024, 128]⟩

abbrev nBuf : Space → Nat
  | .hbm => 27
  | .vmem => 0
  | .smem => 0
  | _ => 0

abbrev bufTy : (tb : Table) → Fin (tcTables nBuf tb) → BufTy
  | .hbm, ⟨0, _⟩ => ⟨S1024x20000, .f32⟩
  | .hbm, ⟨1, _⟩ => ⟨S20000x128, .f32⟩
  | .hbm, ⟨2, _⟩ => ⟨S20000, .i32⟩
  | .hbm, ⟨3, _⟩ => ⟨S_, .i32⟩
  | .hbm, ⟨4, _⟩ => ⟨S20000, .i32⟩
  | .hbm, ⟨5, _⟩ => ⟨S20000, .i1⟩
  | .hbm, ⟨6, _⟩ => ⟨S_, .i32⟩
  | .hbm, ⟨7, _⟩ => ⟨S20000, .i32⟩
  | .hbm, ⟨8, _⟩ => ⟨S20000, .i32⟩
  | .hbm, ⟨9, _⟩ => ⟨S20000, .i32⟩
  | .hbm, ⟨10, _⟩ => ⟨S20000x1, .i32⟩
  | .hbm, ⟨11, _⟩ => ⟨S1, .i32⟩
  | .hbm, ⟨12, _⟩ => ⟨S_, .i32⟩
  | .hbm, ⟨13, _⟩ => ⟨S20000x1, .i32⟩
  | .hbm, ⟨14, _⟩ => ⟨S20000x1, .i1⟩
  | .hbm, ⟨15, _⟩ => ⟨S1x1, .i32⟩
  | .hbm, ⟨16, _⟩ => ⟨S20000x1, .i32⟩
  | .hbm, ⟨17, _⟩ => ⟨S20000x1, .i1⟩
  | .hbm, ⟨18, _⟩ => ⟨S20000x1, .i1⟩
  | .hbm, ⟨19, _⟩ => ⟨S_, .i1⟩
  | .hbm, ⟨20, _⟩ => ⟨S20000, .i1⟩
  | .hbm, ⟨21, _⟩ => ⟨S20000x128, .f32⟩
  | .hbm, ⟨22, _⟩ => ⟨S20000x128, .i1⟩
  | .hbm, ⟨23, _⟩ => ⟨S_, .f32⟩
  | .hbm, ⟨24, _⟩ => ⟨S20000x128, .f32⟩
  | .hbm, ⟨25, _⟩ => ⟨S20000x128, .f32⟩
  | .hbm, ⟨26, _⟩ => ⟨S1024x128, .f32⟩
  | _, _ => ⟨S1024x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  reducesTo_S20000x1_S20000_d1 : S20000x1.ReducesTo [1] S20000
  h_S_ : 0 < S_.numel
  bcast_S20000_S20000x128_0 : S20000.BroadcastsInDim S20000x128 (![0] : Fin 1 → Fin S20000x128.rank)
  bcast_S_S20000x128 : S_.BroadcastsInDim S20000x128 (![] : Fin 0 → Fin S20000x128.rank)
  gather_S20000x128_S20000x1_S20000x128_1_0_n_n_0_1_1128_wf : GatherDims.WF S20000x128 S20000x1 S20000x128 [1] [0] [] [0] [] 1 ![1, 128]
  dot_S1024x20000_S20000x128_S1024x128_1_0_0_1_n_n_wf : DotDims.WF S1024x20000 S20000x128 S1024x128 [1] [0] [0] [1] [] []

variable [Facts₀]

def gather_S20000x128_S20000x1_S20000x128_1_0_n_n_0_1_1128 : GatherDims S20000x128 S20000x1 S20000x128 where
  offsetDims := [1]
  collapsedSliceDims := [0]
  operandBatchingDims := []
  startIndicesBatchingDims := []
  startIndexMap := [0]
  indexVectorDim := 1
  sliceSizes := ![1, 128]
  wf := gather_S20000x128_S20000x1_S20000x128_1_0_n_n_0_1_1128_wf
def dot_S1024x20000_S20000x128_S1024x128_1_0_0_1_n_n : DotDims S1024x20000 S20000x128 S1024x128 where
  lhsContracting := [1]
  rhsContracting := [0]
  lhsNonContracting := [0]
  rhsNonContracting := [1]
  lhsBatch := []
  rhsBatch := []
  wf := dot_S1024x20000_S20000x128_S1024x128_1_0_0_1_n_n_wf

class Facts : Prop extends Facts₀ where

variable [Facts]
-- ==== Proof.WordBodyRun.lean ====
/-
  The kernel body at one grid point, run on whole staging buffers. The body multiplies the point's stretch of
  2000 genes — the transposed expression block [2000, 1024] against the embedding block [2000, 128], contracted
  over the genes — and either stores the product into the output buffer (at the first point) or adds it to what
  the buffer holds (at every later point). Both cases are stated with the output buffer's final contents NAMED:
  the product, resp. the buffer's earlier contents plus the product.
-/
import proofs.«142728_g83296595738828_cont_9to1_m_210_19_alg».proof.Proof.Gen.Kernel.Frame
import proofs.«142728_g83296595738828_cont_9to1_m_210_19_alg».proof.Proof.Gen.Kernel.Skeleton
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, over the grid -/

/-- "This is the first point": the body's first conditional. -/
abbrev isFirst (i : grid0.Coords) : Prop := k0_cond1 i = 1#1
/-- "This is a later point": the body's second conditional. -/
abbrev isLater (i : grid0.Coords) : Prop := k0_cond2 i = 1#1

/-- The first conditional holds at point 0 only. -/
theorem isFirst_iff : ∀ t : Fin cfg0.N, isFirst (grid0.coords t) ↔ t.val = 0 :=
  (by decide +kernel : ∀ t : Fin grid0.N, isFirst (grid0.coords t) ↔ t.val = 0)
/-- The second holds at every point but point 0. -/
theorem isLater_iff : ∀ t : Fin cfg0.N, isLater (grid0.coords t) ↔ t.val ≠ 0 :=
  (by decide +kernel : ∀ t : Fin grid0.N, isLater (grid0.coords t) ↔ t.val ≠ 0)

/-- One of the two conditionals stores at every point, so no window is ever left untouched by the table's rule. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel

/-! ## The staging buffers at a point -/

abbrev buf0 (t : Fin cfg0.N) : Memref sig .tc .vmem S2000x1024 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S2000x128 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S1024x128 .f32 := win0_2.stage (cfg0.slots t 2)
abbrev whole2 (t : Fin cfg0.N) : (buf2 t).IsWhole := hstage0_2 ((cfg0.slots t 2).cast nbuf0_2)

/-- The offsets of every load and store of the body are zero. -/
theorem off_zero : (![0, 0] : Fin 2 → Nat) = fun _ => 0 := by
  funext a; match a with | ⟨0, _⟩ => rfl | ⟨1, _⟩ => rfl

/-- One store through the whole-buffer rectangle covers the buffer. -/
theorem whole_covers {e : EltTy} {S : Shape} {off : Fin S.rank → Nat} (h : off = fun _ => 0) (inb : ∀ a, off a + S.size a ≤ S.size a)
    (w : S.Idx → Elt F e) (y : S.Idx) :
    ∃ p ∈ [(⟨Rect.unit off S.size inb, w⟩ : View.Piece (Elt F) S e)], y ∈ p.1.set := by
  subst h
  exact ⟨_, List.mem_singleton_self _, by show y ∈ (Rect.whole S).set; rw [Rect.set_whole]; exact Finset.mem_univ y⟩

/-! ## The body, case by case -/

set_option maxHeartbeats 1000000 in
/-- AT THE FIRST POINT: from the two input buffers at `x0`, `x1` and the output buffer at anything, the body ends with
    the inputs as they were and the output buffer at the product `k0_pay1 x0 x1`. -/
theorem run_first (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S1024x128 .f32) (harg3 : arg3.IsWhole) (hc0 : isFirst i) (hc1 : ¬isLater i)
    (x0 : Vec F S2000x1024 .f32) (x1 : Vec F S2000x128 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ owns (c : Thread nD τ) arg3 fullShare (k0_pay1 x0 x1)) -∗ K ⟨⟩))
          ⊢ wp frame (wpE (defs₀ (F := F)) Variants.none c none) E (cc0__body i arg1 harg1 arg2 harg2 arg3 harg3) K := by
    intro E K
    simp only [cc0__body_eq_skeleton]; unfold cc0__body_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    have hz := off_zero
    rw [View.read_writes_eq_canon _ _ _ (whole_covers hz _ _), View.canon_unit_zero hz]
    simp only [View.readAt_eq_ld, harg1.read_unread, harg2.read_unread, View.ld_unit_zero (S := S2000x1024) hz,
      View.ld_unit_zero (S := S2000x128) hz]

set_option maxHeartbeats 1000000 in
/-- AT A LATER POINT: from the two input buffers at `x0`, `x1` and the output buffer at `acc`, the body ends with the
    inputs as they were and the output buffer at `k0_pay2 x0 x1 acc`: `acc` plus the product. -/
theorem run_later (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S1024x128 .f32) (harg3 : arg3.IsWhole) (hc0 : ¬isFirst i) (hc1 : isLater i)
    (x0 : Vec F S2000x1024 .f32) (x1 : Vec F S2000x128 .f32) (acc : Vec F S1024x128 .f32) :
      ∀ (E : Set ℕ) (K : PUnit → sProp 𝕄),
        iprop(owns (c : Thread nD τ) arg1 fullShare x0 ∗ owns (c : Thread nD τ) arg2 fullShare x1 ∗ owns (c : Thread nD τ) arg3 fullShare acc
            ∗ (iprop(owns (c : Thread nD τ) arg1 fullShare x0 ∗ owns (c : Thread nD τ) arg2 fullShare x1 ∗ owns (c : Thread nD τ) arg3 fullShare (k0_pay2 x0 x1 acc)) -∗ K ⟨⟩))
          ⊢ wp frame (wpE (defs₀ (F := F)) Variants.none c none) E (cc0__body i arg1 harg1 arg2 harg2 arg3 harg3) K := by
    intro E K
    simp only [cc0__body_eq_skeleton]; unfold cc0__body_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    have hz := off_zero
    rw [View.read_writes_eq_canon _ _ _ (whole_covers hz _ _), View.canon_unit_zero hz]
    simp only [View.readAt_eq_ld, harg1.read_unread, harg2.read_unread, harg3.read_unread, View.ld_unit_zero (S := S2000x1024) hz,
      View.ld_unit_zero (S := S2000x128) hz, View.ld_unit_zero (S := S1024x128) hz]

end Cert.Kernel.Body

end
-- ==== Proof.WordBody.lean ====
/-
  The proof data of the pipeline and its frame run. After the body at grid point t the output's staging buffer
  holds the running total of the first t + 1 stretches: the product of stretch 0, then, point after point, what
  was there plus the product of the point's stretch (`accAt`). The buffer is written back once, after the last
  point, so between points it keeps what the body left. The inputs' buffers hold the point's blocks.
-/
import proofs.«142728_g83296595738828_cont_9to1_m_210_19_alg».proof.Proof.WordBodyRun

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running total -/

/-- What the output's staging buffer holds after the body at position `n`: the product of stretch 0 at `n = 0`,
    and after that the total at `n - 1` plus the product of stretch `n`. -/
def accAt (c : Dev nD) : (n : ℕ) → n < cfg0.N → Vec F S1024x128 .f32
  | 0, hn => k0_pay1 (iblk m c 0 ⟨0, hn⟩) (iblk m c 1 ⟨0, hn⟩)
  | n + 1, hn => k0_pay2 (iblk m c 0 ⟨n + 1, hn⟩) (iblk m c 1 ⟨n + 1, hn⟩) (accAt c n (Nat.lt_of_succ_lt hn))

theorem accAt_first (c : Dev nD) (t : Fin cfg0.N) (h0 : t.val = 0) :
    accAt m c t.val t.isLt = k0_pay1 (iblk m c 0 t) (iblk m c 1 t) := by
  obtain ⟨n, hn⟩ := t
  cases n with
  | zero => rfl
  | succ n => exact absurd h0 (Nat.succ_ne_zero n)

theorem accAt_later (c : Dev nD) (t : Fin cfg0.N) (h0 : t.val ≠ 0) :
    accAt m c t.val t.isLt = k0_pay2 (iblk m c 0 t) (iblk m c 1 t) (accAt m c (t.val - 1) (Nat.lt_of_le_of_lt (Nat.sub_le _ _) t.isLt)) := by
  obtain ⟨n, hn⟩ := t
  cases n with
  | zero => exact absurd rfl h0
  | succ n => rfl

/-! ## The proof data -/

/-- The arrays as the region finds them; after the body at point `t` each input's buffer at its block and the
    output's at the running total; the invariant the scoped rest and the random-number register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = accAt m c t.val t.isLt := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a later point the output's staging buffer holds what the body left at the point before: no write-back
    happens before the last point, the window is never left untouched, and its block is the whole array. -/
theorem before_2_later (c : Dev nD) (t : Fin cfg0.N) (h0 : t.val ≠ 0) (d) :
    (dats m 0 c).before 2 t d = accAt m c (t.val - 1) (Nat.lt_of_le_of_lt (Nat.sub_le _ _) t.isLt) := by
  have hN : t.val < 10 := lt_of_lt_of_eq t.isLt (show cfg0.N = 10 from N_0)
  have hfl : (cfg0.win 2).flush ⟨t.val - 1, Nat.lt_of_le_of_lt (Nat.sub_le _ _) t.isLt⟩ = false :=
    Bool.eq_false_iff.mpr fun h => by have := (flush0_2 _).mp h; dsimp only at this; omega
  rw [(dats m 0 c).before_of_pos 2 t h0 ((cfg0.win 2).fetch_out rfl t), hfl, if_neg Bool.false_ne_true]
  unfold Dat.left
  rw [live_2]
  dsimp only
  unfold Dat.kept
  rw [Pipeline.fill_of_clip_none 2 _ (fun _ => rfl) d ((dats m 0 c).after 2 _), Window.fill_cut, after_2]

/-! ## The body obligation -/

/-- What the body is called with at point `t`: the invariant, nothing owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the inputs' buffers hold the point's blocks; at point 0 the output buffer holds anything
    and ends at the first product; at a later point it holds the total so far and ends at that plus the product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (buf0 t) fullShare ((dats m 0 c).after 0 t) from by
    unfold Dat.leavesExact; rw [live_0 t], after_0]
  rw [show (dats m 0 c).leavesExact 1 t = owns (c : Thread nD τ) (buf1 t) fullShare ((dats m 0 c).after 1 t) from by
    unfold Dat.leavesExact; rw [live_1 t], after_1]
  rw [show (dats m 0 c).leavesExact 2 t = owns (c : Thread nD τ) (buf2 t) fullShare ((dats m 0 c).after 2 t) from by
    unfold Dat.leavesExact; rw [live_2 t], after_2]
  by_cases h0 : t.val = 0
  · rw [accAt_first m c t h0]
    iintro ⟨HΦ, Ho, ⟨%d0, H0⟩, ⟨%d1, H1⟩, ⟨%d2, H2⟩⟩
    iapply (run_first c (grid0.coords t) _ _ _ _ _ _ ((isFirst_iff t).mpr h0) (fun h => (isLater_iff t).mp h h0) (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt_later m c t h0]
    simp only [before_2_later m c t h0]
    iintro ⟨HΦ, Ho, ⟨%d0, H0⟩, ⟨%d1, H1⟩, ⟨%d2, H2⟩⟩
    iapply (run_later c (grid0.coords t) _ _ _ _ _ _ (fun h => h0 ((isFirst_iff t).mp h)) ((isLater_iff t).mpr h0) (iblk m c 0 t) (iblk m c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and at the end every array of
    the pipeline holds what the proof data says — the output the last point's write-back — and every other unscoped
    buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates and the two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyRun.lean ====
/-
  The kernel body at one grid point, run on whole staging buffers. The body multiplies the point's stretch of
  2000 genes — the transposed expression block [2000, 1024] against the embedding block [2000, 128], contracted
  over the genes — and either stores the product into the output buffer (at the first point) or adds it to what
  the buffer holds (at every later point). Both cases are stated with the output buffer's final contents NAMED:
  the product, resp. the buffer's earlier contents plus the product.
-/
import proofs.«142728_g83296595738828_cont_9to1_m_210_19_alg».proof.Proof.Gen.KernelIdeal.Frame
import proofs.«142728_g83296595738828_cont_9to1_m_210_19_alg».proof.Proof.Gen.KernelIdeal.Skeleton
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, over the grid -/

/-- "This is the first point": the body's first conditional. -/
abbrev isFirst (i : grid0.Coords) : Prop := k0_cond1 i = 1#1
/-- "This is a later point": the body's second conditional. -/
abbrev isLater (i : grid0.Coords) : Prop := k0_cond2 i = 1#1

/-- The first conditional holds at point 0 only. -/
theorem isFirst_iff : ∀ t : Fin cfg0.N, isFirst (grid0.coords t) ↔ t.val = 0 :=
  (by decide +kernel : ∀ t : Fin grid0.N, isFirst (grid0.coords t) ↔ t.val = 0)
/-- The second holds at every point but point 0. -/
theorem isLater_iff : ∀ t : Fin cfg0.N, isLater (grid0.coords t) ↔ t.val ≠ 0 :=
  (by decide +kernel : ∀ t : Fin grid0.N, isLater (grid0.coords t) ↔ t.val ≠ 0)

/-- One of the two conditionals stores at every point, so no window is ever left untouched by the table's rule. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel

/-! ## The staging buffers at a point -/

abbrev buf0 (t : Fin cfg0.N) : Memref sig .tc .vmem S2000x1024 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S2000x128 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S1024x128 .f32 := win0_2.stage (cfg0.slots t 2)
abbrev whole2 (t : Fin cfg0.N) : (buf2 t).IsWhole := hstage0_2 ((cfg0.slots t 2).cast nbuf0_2)

/-- The offsets of every load and store of the body are zero. -/
theorem off_zero : (![0, 0] : Fin 2 → Nat) = fun _ => 0 := by
  funext a; match a with | ⟨0, _⟩ => rfl | ⟨1, _⟩ => rfl

/-- One store through the whole-buffer rectangle covers the buffer. -/
theorem whole_covers {e : EltTy} {S : Shape} {off : Fin S.rank → Nat} (h : off = fun _ => 0) (inb : ∀ a, off a + S.size a ≤ S.size a)
    (w : S.Idx → Elt F e) (y : S.Idx) :
    ∃ p ∈ [(⟨Rect.unit off S.size inb, w⟩ : View.Piece (Elt F) S e)], y ∈ p.1.set := by
  subst h
  exact ⟨_, List.mem_singleton_self _, by show y ∈ (Rect.whole S).set; rw [Rect.set_whole]; exact Finset.mem_univ y⟩

/-! ## The body, case by case -/

set_option maxHeartbeats 1000000 in
/-- AT THE FIRST POINT: from the two input buffers at `x0`, `x1` and the output buffer at anything, the body ends with
    the inputs as they were and the output buffer at the product `k0_pay1 x0 x1`. -/
theorem run_first (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S1024x128 .f32) (harg3 : arg3.IsWhole) (hc0 : isFirst i) (hc1 : ¬isLater i)
    (x0 : Vec F S2000x1024 .f32) (x1 : Vec F S2000x128 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ owns (c : Thread nD τ) arg3 fullShare (k0_pay1 x0 x1)) -∗ K ⟨⟩))
          ⊢ wp frame (wpE (defs₀ (F := F)) Variants.none c none) E (cc0__body i arg1 harg1 arg2 harg2 arg3 harg3) K := by
    intro E K
    simp only [cc0__body_eq_skeleton]; unfold cc0__body_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    have hz := off_zero
    rw [View.read_writes_eq_canon _ _ _ (whole_covers hz _ _), View.canon_unit_zero hz]
    simp only [View.readAt_eq_ld, harg1.read_unread, harg2.read_unread, View.ld_unit_zero (S := S2000x1024) hz,
      View.ld_unit_zero (S := S2000x128) hz]

set_option maxHeartbeats 1000000 in
/-- AT A LATER POINT: from the two input buffers at `x0`, `x1` and the output buffer at `acc`, the body ends with the
    inputs as they were and the output buffer at `k0_pay2 x0 x1 acc`: `acc` plus the product. -/
theorem run_later (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S1024x128 .f32) (harg3 : arg3.IsWhole) (hc0 : ¬isFirst i) (hc1 : isLater i)
    (x0 : Vec F S2000x1024 .f32) (x1 : Vec F S2000x128 .f32) (acc : Vec F S1024x128 .f32) :
      ∀ (E : Set ℕ) (K : PUnit → sProp 𝕄),
        iprop(owns (c : Thread nD τ) arg1 fullShare x0 ∗ owns (c : Thread nD τ) arg2 fullShare x1 ∗ owns (c : Thread nD τ) arg3 fullShare acc
            ∗ (iprop(owns (c : Thread nD τ) arg1 fullShare x0 ∗ owns (c : Thread nD τ) arg2 fullShare x1 ∗ owns (c : Thread nD τ) arg3 fullShare (k0_pay2 x0 x1 acc)) -∗ K ⟨⟩))
          ⊢ wp frame (wpE (defs₀ (F := F)) Variants.none c none) E (cc0__body i arg1 harg1 arg2 harg2 arg3 harg3) K := by
    intro E K
    simp only [cc0__body_eq_skeleton]; unfold cc0__body_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    have hz := off_zero
    rw [View.read_writes_eq_canon _ _ _ (whole_covers hz _ _), View.canon_unit_zero hz]
    simp only [View.readAt_eq_ld, harg1.read_unread, harg2.read_unread, harg3.read_unread, View.ld_unit_zero (S := S2000x1024) hz,
      View.ld_unit_zero (S := S2000x128) hz, View.ld_unit_zero (S := S1024x128) hz]

end Cert.KernelIdeal.Body

end
-- ==== Proof.Body.lean ====
/-
  The proof data of the pipeline and its frame run. After the body at grid point t the output's staging buffer
  holds the running total of the first t + 1 stretches: the product of stretch 0, then, point after point, what
  was there plus the product of the point's stretch (`accAt`). The buffer is written back once, after the last
  point, so between points it keeps what the body left. The inputs' buffers hold the point's blocks.
-/
import proofs.«142728_g83296595738828_cont_9to1_m_210_19_alg».proof.Proof.BodyRun

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running total -/

/-- What the output's staging buffer holds after the body at position `n`: the product of stretch 0 at `n = 0`,
    and after that the total at `n - 1` plus the product of stretch `n`. -/
def accAt (c : Dev nD) : (n : ℕ) → n < cfg0.N → Vec F S1024x128 .f32
  | 0, hn => k0_pay1 (iblk m c 0 ⟨0, hn⟩) (iblk m c 1 ⟨0, hn⟩)
  | n + 1, hn => k0_pay2 (iblk m c 0 ⟨n + 1, hn⟩) (iblk m c 1 ⟨n + 1, hn⟩) (accAt c n (Nat.lt_of_succ_lt hn))

theorem accAt_first (c : Dev nD) (t : Fin cfg0.N) (h0 : t.val = 0) :
    accAt m c t.val t.isLt = k0_pay1 (iblk m c 0 t) (iblk m c 1 t) := by
  obtain ⟨n, hn⟩ := t
  cases n with
  | zero => rfl
  | succ n => exact absurd h0 (Nat.succ_ne_zero n)

theorem accAt_later (c : Dev nD) (t : Fin cfg0.N) (h0 : t.val ≠ 0) :
    accAt m c t.val t.isLt = k0_pay2 (iblk m c 0 t) (iblk m c 1 t) (accAt m c (t.val - 1) (Nat.lt_of_le_of_lt (Nat.sub_le _ _) t.isLt)) := by
  obtain ⟨n, hn⟩ := t
  cases n with
  | zero => exact absurd rfl h0
  | succ n => rfl

/-! ## The proof data -/

/-- The arrays as the region finds them; after the body at point `t` each input's buffer at its block and the
    output's at the running total; the invariant the scoped rest and the random-number register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = accAt m c t.val t.isLt := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a later point the output's staging buffer holds what the body left at the point before: no write-back
    happens before the last point, the window is never left untouched, and its block is the whole array. -/
theorem before_2_later (c : Dev nD) (t : Fin cfg0.N) (h0 : t.val ≠ 0) (d) :
    (dats m 0 c).before 2 t d = accAt m c (t.val - 1) (Nat.lt_of_le_of_lt (Nat.sub_le _ _) t.isLt) := by
  have hN : t.val < 10 := lt_of_lt_of_eq t.isLt (show cfg0.N = 10 from N_0)
  have hfl : (cfg0.win 2).flush ⟨t.val - 1, Nat.lt_of_le_of_lt (Nat.sub_le _ _) t.isLt⟩ = false :=
    Bool.eq_false_iff.mpr fun h => by have := (flush0_2 _).mp h; dsimp only at this; omega
  rw [(dats m 0 c).before_of_pos 2 t h0 ((cfg0.win 2).fetch_out rfl t), hfl, if_neg Bool.false_ne_true]
  unfold Dat.left
  rw [live_2]
  dsimp only
  unfold Dat.kept
  rw [Pipeline.fill_of_clip_none 2 _ (fun _ => rfl) d ((dats m 0 c).after 2 _), Window.fill_cut, after_2]

/-! ## The body obligation -/

/-- What the body is called with at point `t`: the invariant, nothing owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the inputs' buffers hold the point's blocks; at point 0 the output buffer holds anything
    and ends at the first product; at a later point it holds the total so far and ends at that plus the product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (buf0 t) fullShare ((dats m 0 c).after 0 t) from by
    unfold Dat.leavesExact; rw [live_0 t], after_0]
  rw [show (dats m 0 c).leavesExact 1 t = owns (c : Thread nD τ) (buf1 t) fullShare ((dats m 0 c).after 1 t) from by
    unfold Dat.leavesExact; rw [live_1 t], after_1]
  rw [show (dats m 0 c).leavesExact 2 t = owns (c : Thread nD τ) (buf2 t) fullShare ((dats m 0 c).after 2 t) from by
    unfold Dat.leavesExact; rw [live_2 t], after_2]
  by_cases h0 : t.val = 0
  · rw [accAt_first m c t h0]
    iintro ⟨HΦ, Ho, ⟨%d0, H0⟩, ⟨%d1, H1⟩, ⟨%d2, H2⟩⟩
    iapply (run_first c (grid0.coords t) _ _ _ _ _ _ ((isFirst_iff t).mpr h0) (fun h => (isLater_iff t).mp h h0) (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt_later m c t h0]
    simp only [before_2_later m c t h0]
    iintro ⟨HΦ, Ho, ⟨%d0, H0⟩, ⟨%d1, H1⟩, ⟨%d2, H2⟩⟩
    iapply (run_later c (grid0.coords t) _ _ _ _ _ _ (fun h => h0 ((isFirst_iff t).mp h)) ((isLater_iff t).mpr h0) (iblk m c 0 t) (iblk m c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and at the end every array of
    the pipeline holds what the proof data says — the output the last point's write-back — and every other unscoped
    buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates and the two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KRun.lean ====
/-
  The result array after the run. The output window's block is the whole [1024, 128] array and is written back
  once, after the last grid point; so the array ends holding what the body left in the staging buffer at point 9:
  the total of the ten stretches' products.
-/
import proofs.«142728_g83296595738828_cont_9to1_m_210_19_alg».proof.Proof.Body
import Idealize.ShloMosaic.Lib.Pipeline.Value

noncomputable section

namespace Cert.KernelIdeal.KRun

open Idealize.ShloMosaic Idealize.ShloMosaic.TcCoe Idealize.SL.Sem
open Idealize.ShloMosaic.Pipeline (Dat)
open Cert.KernelIdeal Cert.KernelIdeal.Gen Cert.KernelIdeal.Body

variable {F : FTy → Type} [FloatOps F]
variable (m : (ℓ : Loc nD τ sig) → Buf (Elt F) ℓ) (ρ : Dev nD → PrngReg)

/-- The total after the last point, as contents of the result array (the window's one block IS the array). -/
abbrev result (c : Dev nD) : Buf (Elt F) ((c : Thread nD τ).loc main_v1) :=
  accAt m c 9 (by rw [show cfg0.N = 10 from N_0]; decide)

/-- The one write-back, at point 9, writes it: block (0, 0) of the array read through zero offsets is the array. -/
theorem flushed_eq (c : Dev nD) (t : Fin cfg0.N) (hf : (cfg0.win 2).flush t = true) :
    (dats m 0 c).flushed 2 t = ((cfg0.win 2).blk t).view.read (Elt F) (result m c) := by
  have hN : cfg0.N = 10 := N_0
  have h9 : t.val = 9 := by have := (flush0_2 t).mp hf; have := t.isLt; omega
  obtain rfl : t = t0_9 := Fin.ext h9
  show (cfg0.win 2).cut (grid0.coords t0_9) ((dats m 0 c).after 2 t0_9) = _
  rw [after_2]
  have hz' : (fun a => win0_2.index t0_9 a * main_v1.ty.shape.size a) = fun _ => 0 :=
    funext fun a => by fin_cases a <;> decide
  exact (Memref.read_access_unit_zero (Elt F) main_v1 hz' (fun a => by rw [congrFun hz' a]; simp) (result m c)).symm

/-- So the result array ends holding the total: point 9's block covers every index. -/
theorem final_eq (c : Dev nD) : (dats m 0 c).arrAt 2 cfg0.N = result m c :=
  (dats m 0 c).arrAt_eq_of_cover 2 (result m c) (flushed_eq m c) fun i =>
    ⟨t0_9, (flush0_2 t0_9).mpr rfl, by
      show i ∈ ((View.whole main_v1).slice (win0_2.rect t0_9)).set
      rw [View.set_slice_whole, Rect.mem_set_unit]
      intro a
      have h0 : (i 0 : Nat) < 1024 := (i 0).isLt
      have h1 : (i 1 : Nat) < 128 := (i 1).isLt
      match a with
      | ⟨0, _⟩ => show win0_2.index t0_9 0 * win0_2.size 0 ≤ (i 0 : Nat) ∧ (i 0 : Nat) < win0_2.index t0_9 0 * win0_2.size 0 + win0_2.xsize (grid0.coords t0_9) 0
                  rw [show win0_2.index t0_9 0 * win0_2.size 0 = 0 from by decide +kernel, show win0_2.xsize (grid0.coords t0_9) 0 = 1024 from by decide +kernel]; omega
      | ⟨1, _⟩ => show win0_2.index t0_9 1 * win0_2.size 1 ≤ (i 1 : Nat) ∧ (i 1 : Nat) < win0_2.index t0_9 1 * win0_2.size 1 + win0_2.xsize (grid0.coords t0_9) 1
                  rw [show win0_2.index t0_9 1 * win0_2.size 1 = 0 from by decide +kernel, show win0_2.xsize (grid0.coords t0_9) 1 = 128 from by decide +kernel]; omega⟩

/-- The run, read: the result array at the total, the two argument arrays unchanged. -/
theorem run : θ_run defs (onTc (τ := τ) (main (F := F))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final_eq m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.KernelIdeal.KRun

end
-- ==== Proof.LibLeadingDot.lean ====
/-
  A matrix product that contracts the FIRST axis of both operands, read at an index, at the ideal instance.

  The dimension numbers `LeadingDot.dims K M N` contract the left operand's first axis with the right operand's
  first axis: a `K × M` matrix, read as its transpose, by a `K × N` matrix. Over the extended reals the matrix
  product into a zero accumulator is, at the entry `(i, j)`, the sum over `k : Fin K` of `lhs (k, i) * rhs (k, j)`.
  The library states this sum over the contracted SHAPE's index type; here it is re-indexed once, for every
  `K M N`, over `Fin K`, with both operand indices written from coordinates. A printed record whose six lists are
  `[0] [0] [1] [1] [] []` is `dims K M N` (its well-formedness field is a proposition), so the lemmas apply to it
  after `rw [show d = LeadingDot.dims _ _ _ from rfl]`.
-/
import Idealize.ShloMosaic.PureOps.Ideal.Laws
import Idealize.ShloMosaic.Lib.ValueIdx

noncomputable section

namespace Idealize.ShloMosaic.LeadingDot

open Idealize.ShloMosaic Idealize.ShloMosaic.ValueIdx

/-- `K × M` by `K × N`, both contracted on their first axis; the result is `M × N`. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable (K M N : Nat)

/-- The left operand's second coordinate is the result's row coordinate. -/
theorem lhs_col (j : (⟨2, ![M, N]⟩ : Shape).Idx) (q : (dims K M N).contr.Idx) :
    ((dims K M N).lhsIdx j q 1).val = (j 0).val := by
  unfold DotDims.lhsIdx
  rw [dif_neg (show ¬(1 : Fin (⟨2, ![K, M]⟩ : Shape).rank) ∈ (dims K M N).lhsBatch from List.not_mem_nil),
    dif_pos (show (1 : Fin (⟨2, ![K, M]⟩ : Shape).rank) ∈ (dims K M N).lhsNonContracting from List.mem_singleton_self _)]
  rfl

/-- The right operand's second coordinate is the result's column coordinate. -/
theorem rhs_col (j : (⟨2, ![M, N]⟩ : Shape).Idx) (q : (dims K M N).contr.Idx) :
    ((dims K M N).rhsIdx j q 1).val = (j 1).val := by
  unfold DotDims.rhsIdx
  rw [dif_neg (show ¬(1 : Fin (⟨2, ![K, N]⟩ : Shape).rank) ∈ (dims K M N).rhsBatch from List.not_mem_nil),
    dif_pos (show (1 : Fin (⟨2, ![K, N]⟩ : Shape).rank) ∈ (dims K M N).rhsNonContracting from List.mem_singleton_self _)]
  rfl

/-- The contraction, re-indexed over `Fin K`. -/
theorem sum_eq (lhs : (⟨2, ![K, M]⟩ : Shape).Idx → EReal) (rhs : (⟨2, ![K, N]⟩ : Shape).Idx → EReal)
    (j : (⟨2, ![M, N]⟩ : Shape).Idx) :
    ∑ q : (dims K M N).contr.Idx, lhs ((dims K M N).lhsIdx j q) * rhs ((dims K M N).rhsIdx j q)
      = ∑ k : Fin K, lhs (ix2 k (j 0)) * rhs (ix2 k (j 1)) := by
  rw [← Equiv.sum_comp (contrEquiv1 (dims K M N) K rfl rfl).symm]
  refine Finset.sum_congr rfl fun k _ => ?_
  have hk := contrEquiv1_symm_val (dims K M N) K rfl rfl k
  have el : (dims K M N).lhsIdx j ((contrEquiv1 (dims K M N) K rfl rfl).symm k) = ix2 k (j 0) :=
    funext fun a => Fin.ext (by
      match a with
      | ⟨0, _⟩ => exact ((dims K M N).lhsIdx_val_of_single rfl j _).trans hk
      | ⟨1, _⟩ => exact lhs_col K M N _ _)
  have er : (dims K M N).rhsIdx j ((contrEquiv1 (dims K M N) K rfl rfl).symm k) = ix2 k (j 1) :=
    funext fun a => Fin.ext (by
      match a with
      | ⟨0, _⟩ => exact ((dims K M N).rhsIdx_val_of_single rfl j _).trans hk
      | ⟨1, _⟩ => exact rhs_col K M N _ _)
  exact congrArg₂ (· * ·) (congrArg lhs el) (congrArg rhs er)

variable {K M N}

/-- The matrix product into a zero accumulator, at `(i, j)`: the sum over `k` of `lhs (k, i) * rhs (k, j)`. -/
theorem matmul_zero_apply {φ₁ φ₂ : FTy} (prec : Option ContractPrecision)
    (lhs : FVec Ideal ⟨2, ![K, M]⟩ φ₁) (rhs : FVec Ideal ⟨2, ![K, N]⟩ φ₂) (i : Fin M) (j : Fin N) :
    matmul (dims K M N) prec lhs rhs (constant (F := Ideal) ⟨2, ![M, N]⟩ .f32 0x00000000#32) (ix2 i j)
      = ∑ k : Fin K, lhs (ix2 k i) * rhs (ix2 k j) :=
  (Ideal.matmul_constant_zero_apply (dims K M N) prec lhs rhs (ix2 i j)).trans (sum_eq K M N lhs rhs (ix2 i j))

end Idealize.ShloMosaic.LeadingDot

end
-- ==== Proof.KPay.lean ====
/-
  The body's two values at an index, on the extended reals. The product of one stretch at (b, h) is the sum over
  the stretch's 2000 genes k of x0 (k, b) · x1 (k, h): the change of float format before the matrix unit is the
  identity, and the matrix product contracts the first axis of both blocks into a zero accumulator. At a later
  point the body adds that product to what the output buffer held.
-/
import proofs.«142728_g83296595738828_cont_9to1_m_210_19_alg».proof.Proof.Gen.KernelIdeal.Skeleton
import proofs.«142728_g83296595738828_cont_9to1_m_210_19_alg».proof.Proof.LibLeadingDot
import Idealize.ShloMosaic.Lib.Pipeline.Value

noncomputable section

open scoped BigOperators

namespace Cert.KernelIdeal.KPay

open Idealize.ShloMosaic Idealize.ShloMosaic.ValueIdx
open Cert.KernelIdeal Cert.KernelIdeal.Gen

/-- The first point's value: the stretch's product. -/
theorem pay1_apply (x0 : FVec Ideal S2000x1024 .f32) (x1 : FVec Ideal S2000x128 .f32) (b : Fin 1024) (h : Fin 128) :
    k0_pay1 (F := Ideal) x0 x1 (ix2 b h) = ∑ k : Fin 2000, x0 (ix2 k b) * x1 (ix2 k h) := by
  unfold k0_pay1
  rw [show dot_S2000x1024_S2000x128_S1024x128_0_0_1_1_n_n = LeadingDot.dims 2000 1024 128 from rfl]
  refine (LeadingDot.matmul_zero_apply none _ _ b h).trans ?_
  refine Finset.sum_congr rfl fun k _ => ?_
  rw [truncf_apply, truncf_apply, shapeCast_self]

/-- A later point's value: what the buffer held plus the stretch's product. -/
theorem pay2_apply (x0 : FVec Ideal S2000x1024 .f32) (x1 : FVec Ideal S2000x128 .f32) (acc : FVec Ideal S1024x128 .f32)
    (b : Fin 1024) (h : Fin 128) :
    k0_pay2 (F := Ideal) x0 x1 acc (ix2 b h) = acc (ix2 b h) + k0_pay1 (F := Ideal) x0 x1 (ix2 b h) := by
  unfold k0_pay2
  rw [addf_apply, shapeCast_self]

end Cert.KernelIdeal.KPay

end
-- ==== Proof.KBlocks.lean ====
/-
  The two input blocks of grid point t, read at an index, in terms of the argument arrays. The region finds in its
  first operand the transpose of the expression matrix x (one host operation before the region); block t of it is
  rows 2000·t … 2000·t + 1999, so its entry (k, b) is x at (b, 2000·t + k). Block t of the embedding table is the
  same stretch of its rows: entry (k, h) is emb at (2000·t + k, h).
-/
import proofs.«142728_g83296595738828_cont_9to1_m_210_19_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.KBlocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The region's first operand holds the transpose of the expression matrix. -/
theorem V_v0 (c : Dev nD) : (V m c main_v0 : S20000x1024.Idx → EReal)
    = transpose S20000x1024 [1, 0] (m ((c : Thread nD τ).loc main_arg0)) transposes_S1024x20000_S20000x1024_1_0 := by
  dsimp only [V, hostOps0]; after_results

/-- Both input windows step along the genes: block index (t, 0). -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)

/-- Entry (k, b) of the first block at point t is x at (b, 2000·t + k). -/
theorem blk0_apply (c : Dev nD) (t : Fin cfg0.N) (k : Fin 2000) (b : Fin 1024) (hk : 2000 * t.val + k.val < 20000) :
    (iblk m c 0 t : Vec Ideal S2000x1024 .f32) (ix2 k b)
      = m ((c : Thread nD τ).loc main_arg0) (ix2 b (⟨2000 * t.val + k.val, hk⟩ : Fin 20000)) := by
  unfold iblk
  rw [View.read_apply]
  show V m c main_v0 (((cfg0.win 0).blk t).view.emb (ix2 k b)) = _
  rw [V_v0]
  refine transpose_apply [1, 0] _ _ _ (ix2 b (⟨2000 * t.val + k.val, hk⟩ : Fin 20000)) ?_
  intro a
  match a with
  | ⟨0, _⟩ => show 2000 * t.val + k.val = win0_0.index t 0 * 2000 + 1 * k.val; rw [(idx0 t).1]; omega
  | ⟨1, _⟩ => show b.val = win0_0.index t 1 * 1024 + 1 * b.val; rw [(idx0 t).2]; omega

/-- Entry (k, h) of the second block at point t is emb at (2000·t + k, h). -/
theorem blk1_apply (c : Dev nD) (t : Fin cfg0.N) (k : Fin 2000) (h : Fin 128) (hk : 2000 * t.val + k.val < 20000) :
    (iblk m c 1 t : Vec Ideal S2000x128 .f32) (ix2 k h)
      = m ((c : Thread nD τ).loc main_arg1) (ix2 (⟨2000 * t.val + k.val, hk⟩ : Fin 20000) h) := by
  unfold iblk
  rw [View.read_apply]
  show V m c main_arg1 (((cfg0.win 1).blk t).view.emb (ix2 k h)) = _
  rw [V_main_arg1]
  refine congrArg _ (funext fun a => Fin.ext ?_)
  match a with
  | ⟨0, _⟩ => show win0_1.index t 0 * 2000 + 1 * k.val = 2000 * t.val + k.val; rw [(idx1 t).1]; omega
  | ⟨1, _⟩ => show win0_1.index t 1 * 128 + 1 * h.val = h.val; rw [(idx1 t).2]; omega

end Cert.KernelIdeal.KBlocks

end
-- ==== Proof.LibBlockSum.lean ====
/-
  A finite sum cut into consecutive blocks of one length.

  Over any commutative additive monoid, the sum of `f` over `Fin N` with `N = J * n` is the sum, over the `J`
  blocks `s`, of the sum over the `n` places `r` inside a block of `f` at the position `n * s + r`. Only
  commutativity and associativity of the addition are used, so the regrouping holds on the extended reals with
  no finiteness assumption. It sets a contraction that is accumulated block by block along the contracted axis
  beside the same contraction taken whole.
-/
import Mathlib.Data.Fintype.BigOperators
import Mathlib.Logic.Equiv.Fin.Basic

namespace Idealize.ShloMosaic.BlockSum

/-- Place `r` of block `s` lies below `J * n`. -/
theorem place_lt {J n : ℕ} (s : Fin J) (r : Fin n) : n * s.val + r.val < J * n := by
  have h1 : n * (s.val + 1) ≤ n * J := Nat.mul_le_mul_left n s.isLt
  have h2 : n * (s.val + 1) = n * s.val + n := Nat.mul_succ n s.val
  have h3 := r.isLt
  rw [Nat.mul_comm J n]
  omega

/-- The sum over `Fin N`, `N = J * n`, block by block: block `s` holds the positions `n * s + r`, `r < n`. -/
theorem sum_blocks {β : Type*} [AddCommMonoid β] {N : ℕ} (J n : ℕ) (hN : N = J * n) (f : Fin N → β) :
    ∑ k : Fin N, f k = ∑ s : Fin J, ∑ r : Fin n, f ⟨n * s.val + r.val, (place_lt s r).trans_eq hN.symm⟩ := by
  subst hN
  rw [← Fintype.sum_prod_type' (f := fun (s : Fin J) (r : Fin n) => f ⟨n * s.val + r.val, place_lt s r⟩)]
  refine (Fintype.sum_equiv finProdFinEquiv _ _ fun x => ?_).symm
  exact congrArg f (Fin.ext (Nat.add_comm _ _))

end Idealize.ShloMosaic.BlockSum
-- ==== Proof.Spec.lean ====
/-
  The result both programs are compared with: a batch of 1024 expression rows times a table of 20000 gene
  embeddings of width 128. Entry (b, h) of the product is the sum over the genes k of x[b, k] · emb[k, h], on the
  extended reals. The sum is written over the one index set Fin 20000; a program that accumulates it in ten
  stretches of 2000 genes, or reads x through its transpose, computes the same sum (addition on the extended
  reals is commutative and associative, so no finiteness is asked of the entries).
-/
import Idealize.ShloMosaic.PureOps.Ideal
import Idealize.ShloMosaic.Lib.ValueIdx

noncomputable section

open scoped BigOperators

namespace Cert.Embed

open Idealize.ShloMosaic Idealize.ShloMosaic.ValueIdx

/-- Entry (b, h) of the product: the sum over the 20000 genes k of x[b, k] · emb[k, h]. -/
def entry (x : FVec Ideal ⟨2, ![1024, 20000]⟩ .f32) (e : FVec Ideal ⟨2, ![20000, 128]⟩ .f32) (b : Fin 1024) (h : Fin 128) : EReal :=
  ∑ k : Fin 20000, x (ix2 b k) * e (ix2 k h)

/-- The product as an array: `entry` at the index's two coordinates. -/
def embed (x : FVec Ideal ⟨2, ![1024, 20000]⟩ .f32) (e : FVec Ideal ⟨2, ![20000, 128]⟩ .f32) : FVec Ideal ⟨2, ![1024, 128]⟩ .f32 :=
  fun i => entry x e (i 0) (i 1)

theorem embed_ix2 (x : FVec Ideal ⟨2, ![1024, 20000]⟩ .f32) (e : FVec Ideal ⟨2, ![20000, 128]⟩ .f32) (b : Fin 1024) (h : Fin 128) :
    embed x e (ix2 b h) = entry x e b h := rfl

end Cert.Embed

end
-- ==== Proof.KValue.lean ====
/-
  The kernel's result is the specified product. After grid point n the output buffer holds, at (b, h), the sum of
  the products of stretches 0 … n (induction on the point: the first point stores its product, each later point adds
  its own). Stretch s contributes the sum over its 2000 genes k of x (b, 2000·s + k) · emb (2000·s + k, h). The sum
  over the 20000 genes, cut into ten consecutive blocks of 2000, is the sum of the ten stretch sums — a regrouping
  of a finite sum in a commutative monoid, valid on the extended reals with no finiteness asked of the entries.
-/
import proofs.«142728_g83296595738828_cont_9to1_m_210_19_alg».proof.Proof.KRun
import proofs.«142728_g83296595738828_cont_9to1_m_210_19_alg».proof.Proof.KPay
import proofs.«142728_g83296595738828_cont_9to1_m_210_19_alg».proof.Proof.KBlocks
import proofs.«142728_g83296595738828_cont_9to1_m_210_19_alg».proof.Proof.LibBlockSum
import proofs.«142728_g83296595738828_cont_9to1_m_210_19_alg».proof.Proof.Spec

noncomputable section

open scoped BigOperators

namespace Cert.KernelIdeal.KValue

open Idealize.ShloMosaic Idealize.ShloMosaic.TcCoe Idealize.SL.Sem Idealize.ShloMosaic.ValueIdx
open Cert.KernelIdeal Cert.KernelIdeal.Gen Cert.KernelIdeal.Body

variable (m : (ℓ : Loc nD τ sig) → Buf (Elt Ideal) ℓ) (ρ : Dev nD → PrngReg)

/-- The expression matrix and the embedding table as launched, as arrays of extended reals. -/
abbrev xs (c : Dev nD) : FVec Ideal ⟨2, ![1024, 20000]⟩ .f32 := m ((c : Thread nD τ).loc main_arg0)
abbrev es (c : Dev nD) : FVec Ideal ⟨2, ![20000, 128]⟩ .f32 := m ((c : Thread nD τ).loc main_arg1)

/-- Stretch `s`'s contribution to entry (b, h), from the argument arrays (nothing beyond the ten stretches). -/
def part (c : Dev nD) (b : Fin 1024) (h : Fin 128) (s : ℕ) : EReal :=
  if hs : s < 10 then
    ∑ k : Fin 2000, xs m c (ix2 b (⟨2000 * s + k.val, by have := k.isLt; omega⟩ : Fin 20000))
      * es m c (ix2 (⟨2000 * s + k.val, by have := k.isLt; omega⟩ : Fin 20000) h)
  else 0

/-- The product the body computes at point t is stretch t's contribution. -/
theorem stretch_eq (c : Dev nD) (t : Fin cfg0.N) (b : Fin 1024) (h : Fin 128) :
    k0_pay1 (F := Ideal) (iblk m c 0 t) (iblk m c 1 t) (ix2 b h) = part m c b h t.val := by
  have hN : t.val < 10 := lt_of_lt_of_eq t.isLt N_0
  refine (KPay.pay1_apply (iblk m c 0 t) (iblk m c 1 t) b h).trans ?_
  unfold part
  rw [dif_pos hN]
  refine Finset.sum_congr rfl fun k _ => ?_
  exact congrArg₂ (· * ·) (KBlocks.blk0_apply m c t k b (by have := k.isLt; omega))
    (KBlocks.blk1_apply m c t k h (by have := k.isLt; omega))

/-- After point n the output buffer holds at (b, h) the contributions of stretches 0 … n. -/
theorem accAt_apply (c : Dev nD) (b : Fin 1024) (h : Fin 128) :
    ∀ (n : ℕ) (hn : n < cfg0.N), accAt m c n hn (ix2 b h) = ∑ s ∈ Finset.range (n + 1), part m c b h s
  | 0, hn => by
    rw [Finset.sum_range_one]
    exact stretch_eq m c ⟨0, hn⟩ b h
  | n + 1, hn => by
    rw [Finset.sum_range_succ, ← accAt_apply c b h n (Nat.lt_of_succ_lt hn)]
    show k0_pay2 (F := Ideal) (iblk m c 0 ⟨n + 1, hn⟩) (iblk m c 1 ⟨n + 1, hn⟩) (accAt m c n (Nat.lt_of_succ_lt hn)) (ix2 b h) = _
    refine (KPay.pay2_apply (iblk m c 0 ⟨n + 1, hn⟩) (iblk m c 1 ⟨n + 1, hn⟩) (accAt m c n (Nat.lt_of_succ_lt hn)) b h).trans ?_
    exact congrArg (accAt m c n (Nat.lt_of_succ_lt hn) (ix2 b h) + ·) (stretch_eq m c ⟨n + 1, hn⟩ b h)

/-- The result array at (b, h) is the specified entry: the ten stretch sums are the sum over all 20000 genes. -/
theorem result_apply (c : Dev nD) (b : Fin 1024) (h : Fin 128) :
    KRun.result m c (ix2 b h) = Cert.Embed.entry (xs m c) (es m c) b h := by
  show accAt m c 9 _ (ix2 b h) = _
  rw [accAt_apply m c b h 9 _]
  unfold Cert.Embed.entry
  rw [BlockSum.sum_blocks 10 2000 rfl (fun k : Fin 20000 => xs m c (ix2 b k) * es m c (ix2 k h))]
  rw [← Fin.sum_univ_eq_sum_range (fun s => part m c b h s) 10]
  refine Finset.sum_congr rfl fun s _ => ?_
  unfold part
  rw [dif_pos s.isLt]

/-- The result array is the specified product. -/
theorem result_eq (c : Dev nD) :
    (KRun.result m c : FVec Ideal ⟨2, ![1024, 128]⟩ .f32) = Cert.Embed.embed (xs m c) (es m c) := by
  funext i
  obtain ⟨b, h, rfl⟩ : ∃ (b : Fin 1024) (h : Fin 128), i = ix2 b h := ⟨i 0, i 1, eq_ix2 i⟩
  exact result_apply m c b h

/-- The run: the result array ends at the specified product of the argument arrays, which end unchanged. -/
theorem run : θ_run defs (onTc (τ := τ) (main (F := Ideal))) ⟨m, fun _ => 0, ρ⟩ fun r => ∀ c : Dev nD,
      r.2.mem ((c : Thread nD τ).loc main_v1)
        = Cert.Embed.embed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_eq m c), (h c).2⟩) (KRun.run (F := Ideal) m ρ)

end Cert.KernelIdeal.KValue

end
-- ==== Proof.RefRun.lean ====
/-
  The reference program's @main as the list of its twenty-five host operations, the two outlined functions' operations
  written in place over the buffers their calls name: the row numbers 0, 1, …, 19999; the gather of whole rows of the
  table at those numbers (the wrap of a negative number, the two range tests and their conjunction, the clamped gather,
  the mask spread over the row, the fill value, the choice between gathered row and fill); and the matrix product with the
  gathered table. Every weakly fair execution of @main terminates with the product's buffer at the operations' composed
  term of the two arguments, and the arguments unchanged.
-/
import proofs.«142728_g83296595738828_cont_9to1_m_210_19_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- A row number with 20000 added where it tests below zero: the wrap of a negative index. -/
def wrap (w : IVec S20000 32) : IVec S20000 32 :=
  select (cmpi .slt w (broadcastInDim S20000 ![] bcast_S_S20000 (constantI S_ 32 0#32)))
    (addi w (broadcastInDim S20000 ![] bcast_S_S20000 (constantI S_ 32 20000#32))) w

/-- The wrapped row numbers as a column. -/
def col (w : IVec S20000 32) : IVec S20000x1 32 :=
  broadcastInDim S20000x1 ![0] bcast_S20000_S20000x1_0 (wrap w)

/-- Per row, whether its wrapped number lies in [0, 19999]: the two tests, their conjunction, and its
    conjunction along the one column. -/
def inRange (w : IVec S20000 32) : IVec S20000 1 :=
  Host.reduce IntOp.andi
    (andi (cmpi .sge (col w) (broadcastInDim S20000x1 ![] bcast_S_S20000x1 (constantI S_ 32 0#32)))
      (cmpi .sle (col w) (broadcastInDim S20000x1 ![0, 1] bcast_S1x1_S20000x1_0_1
        (broadcastInDim S1x1 ![1] bcast_S1_S1x1_1 (constantI S1 32 19999#32)))))
    (constantI S_ 1 1#1) reducesTo_S20000x1_S20000_d1 h_S_

/-- The rows of `e` at the row numbers `w`: the gathered row where the number is in range, the fill value elsewhere. -/
def take (e : FVec F S20000x128 .f32) (w : IVec S20000 32) : FVec F S20000x128 .f32 :=
  select (broadcastInDim S20000x128 ![0] bcast_S20000_S20000x128_0 (inRange w))
    (Host.gather gather_S20000x128_S20000x1_S20000x128_1_0_n_n_0_1_1128 e (col w))
    (broadcastInDim S20000x128 ![] bcast_S_S20000x128 (constant S_ .f32 0x7FC00000#32))

/-- What @main computes of its two arguments: `x` times the rows of `e` taken at 0, 1, …, 19999. -/
def out (x : FVec F S1024x20000 .f32) (e : FVec F S20000x128 .f32) : FVec F S1024x128 .f32 :=
  Host.dotGeneral dot_S1024x20000_S20000x128_S1024x128_1_0_0_1_n_n none x (take e (iotaInDim S20000 32 0))

/-! ## The operations -/

/-- @main's 25 operations, in order, the two calls' operations in place. -/
abbrev ops : List (HloOp τ sig (Elt F)) :=
  [ nullary main_v0 (iotaInDim S20000 32 0),
    TRef.nullary main_call0.c (constantI S_ 32 0#32),
    TRef.unary main_call0.c main_call0.v0 (broadcastInDim S20000 ![] bcast_S_S20000),
    TRef.binary (.of main_v0) main_call0.v0 main_call0.v1 (cmpi .slt),
    TRef.nullary main_call0.c_0 (constantI S_ 32 20000#32),
    TRef.unary main_call0.c_0 main_call0.v2 (broadcastInDim S20000 ![] bcast_S_S20000),
    TRef.binary (.of main_v0) main_call0.v2 main_call0.v3 addi,
    TRef.ternary main_call0.v1 main_call0.v3 (.of main_v0) main_call0.call0.v0 select,
    TRef.unary main_call0.call0.v0 main_call0.v5 (broadcastInDim S20000x1 ![0] bcast_S20000_S20000x1_0),
    TRef.nullary main_call0.c_1 (constantI S1 32 19999#32),
    TRef.nullary main_call0.c_2 (constantI S_ 32 0#32),
    TRef.unary main_call0.c_2 main_call0.v6 (broadcastInDim S20000x1 ![] bcast_S_S20000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S20000x1 ![0, 1] bcast_S1x1_S20000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S20000x1_S20000_d1 h_S_),
    TRef.binary (.of main_arg1) main_call0.v5 main_call0.v13 (fun x i => Host.gather gather_S20000x128_S20000x1_S20000x128_1_0_n_n_0_1_1128 x i),
    TRef.unary main_call0.v12 main_call0.v14 (broadcastInDim S20000x128 ![0] bcast_S20000_S20000x128_0),
    TRef.nullary main_call0.cst (constant S_ .f32 0x7FC00000#32),
    TRef.unary main_call0.cst main_call0.v15 (broadcastInDim S20000x128 ![] bcast_S_S20000x128),
    TRef.ternary main_call0.v14 main_call0.v13 main_call0.v15 main_call0.v16 select,
    binary main_arg0 main_v1 main_v2 ((fun l r => Host.dotGeneral dot_S1024x20000_S20000x128_S1024x128_1_0_0_1_n_n none l r) : (⟨S1024x20000, .f32⟩ : BufTy).Contents (Elt F) → (⟨S20000x128, .f32⟩ : BufTy).Contents (Elt F) → (⟨S1024x128, .f32⟩ : BufTy).Contents (Elt F)) ]

/-- @main is that straight line: the two functions' definitions unfolded at their calls, and sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub ..⟩

/-- At the compiled mesh, for any float values, from any memory with zero counters: every weakly fair execution of @main
    on the TensorCores terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibTypedRef.lean ====
/-
  A typed reference `x : TRef sig T` carries contents of type `T.Contents` to and from its buffer's own contents type along the
  equation `x.ref.ty = T`.  The transport changes nothing: carried to the buffer a value is (heterogeneously) itself, and carried
  there and back it is itself.  A host operation of an outlined function (a `where`, a `relu`) is printed over typed
  references; these two facts remove the transports its results are read through.
-/
import Idealize.ShloMosaic.Lib.StableHlo

namespace TypedRefCast

open Idealize.ShloMosaic Idealize.ShloMosaic.StableHlo

variable {sig : RefSig} {Val : EltTy → Type} {T : BufTy}

/-- Contents carried to a typed reference's buffer are the contents. -/
theorem toBuf_heq (x : TRef sig T) (v : T.Contents Val) : HEq (x.toBuf v) v := by
  obtain ⟨r, h, h2, h3⟩ := x
  subst h
  rfl

/-- Carried to the buffer and back. -/
theorem ofBuf_toBuf (x : TRef sig T) (v : T.Contents Val) : x.ofBuf (x.toBuf v) = v := by
  obtain ⟨r, h, h2, h3⟩ := x
  subst h
  rfl

end TypedRefCast
-- ==== Proof.RefOut.lean ====
/-
  What the reference's operations leave in the product's buffer, read back from the fold: the matrix product of the first
  argument with the rows of the second taken at the row numbers 0, 1, …, 19999 (`RefRun.out`); the two arguments' buffers
  are written by no operation. A value carried into an outlined function's buffer and read back out of it is the value.
-/
import proofs.«142728_g83296595738828_cont_9to1_m_210_19_alg».proof.Proof.RefRun
import proofs.«142728_g83296595738828_cont_9to1_m_210_19_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- No operation writes the first argument. -/
theorem arg0_eq (V : Valuation τ sig (Elt F)) :
    after ops V (main_arg0 : DevRef τ sig) = V (main_arg0 : DevRef τ sig) := by
  after_results

/-- No operation writes the second argument. -/
theorem arg1_eq (V : Valuation τ sig (Elt F)) :
    after ops V (main_arg1 : DevRef τ sig) = V (main_arg1 : DevRef τ sig) := by
  after_results

/-- The taken rows carried to the buffer the product reads them from are the taken rows. -/
theorem toBuf_v1 (p1 : main_v1.ty = ⟨S20000x128, .f32⟩) (p2 : main_v1.space ≠ .host) (p3 : main_v1.isScoped = false)
    (v : FVec F S20000x128 .f32) :
    (TRef.of main_v1 p1 p2 p3).toBuf (Val := Elt F) v = v := rfl

/-- The fold of the operations at the product's buffer is `out` of the two arguments: each operation's result at its own
    buffer is its function's value of its operands' contents, at any other buffer what was there; what is left is `out`
    with each intermediate value carried into its buffer and back, which changes nothing. -/
theorem out_eq (V : Valuation τ sig (Elt F)) :
    after ops V (main_v2 : DevRef τ sig) = out (V (main_arg0 : DevRef τ sig)) (V (main_arg1 : DevRef τ sig)) := by
  after_results_simp
  simp only [TypedRefCast.ofBuf_toBuf, toBuf_v1]
  unfold out take inRange col wrap
  rfl

/-- On every device, for any float values, from any memory with zero counters: every weakly fair execution of @main
    terminates with the product's buffer at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _),
      (h c main_arg0).trans (arg0_eq _),
      (h c main_arg1).trans (arg1_eq _)⟩)
    (run_main m ρ)

end Cert.ReferenceIdeal.RefRun

end
-- ==== Proof.LibRowOps.lean ====
/-
  Whole rows gathered from, and added into, a matrix — `jnp`'s `x[idx]` of a matrix `x : [N, C]` at a list of `E` row
  numbers, and `segment_sum` of an `[E, C]` matrix of rows into `N` segments — read at an index given by coordinates.

  * The gather (offset axis 1, collapsed axis 0, the start index one signed word per row of an `[E, 1]` array, slices
    `1 × C`): entry `(e, c)` of the result is `x` at row `idx[e, 0]`, read signed and clamped into `[0, N − 1]`,
    column `c`.
  * The accumulating scatter at the ideal instance (window axis 1, inserted axis 0, the row number one signed word per
    update row, not clamped): entry `(n, c)` of the result is the operand's entry plus the sum, over the update rows `e`
    whose word IS `n`, of the update's entry `(e, c)`. A row whose word is negative or at least `N` is dropped: it equals
    no `n`.

  Both for every `N`, `E`, `C`: a printed record with these lists is the record below (its well-formedness field is a
  proposition), so the lemmas apply to it after `show … = _ from rfl`.
-/
import Idealize.ShloMosaic.PureOps.Ideal
import Idealize.ShloMosaic.PureOps.Ideal.Laws
import Idealize.ShloMosaic.Lib.ValueIdx

noncomputable section

open scoped BigOperators

namespace Idealize.ShloMosaic.RowOps

open Idealize.ShloMosaic Idealize.ShloMosaic.ValueIdx

variable {N E C w : Nat}

/-- An axis is kept exactly when it is not in the list. -/
theorem mem_kept {s : Shape} (axes : List (Fin s.rank)) (a : Fin s.rank) : a ∈ s.kept axes ↔ a ∉ axes := by
  simp [Shape.kept, List.mem_filter, List.mem_finRange]

/-- Axis 1 is not in the list `[0]`. -/
theorem one_not_mem {s : Shape} (h : s.rank = 2) : (⟨1, by omega⟩ : Fin s.rank) ∉ [(⟨0, by omega⟩ : Fin s.rank)] :=
  fun hm => absurd (congrArg Fin.val (List.mem_singleton.mp hm)) Nat.one_ne_zero

/-! ## Rows gathered -/

/-- The dimension numbers of a gather of whole rows. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a gathered row comes from: the start word read signed, clamped into `[0, N − 1]`. -/
def srcRow (hN : 0 < N) (idx : IVec ⟨2, ![E, 1]⟩ w) (e : Fin E) : Fin N :=
  ⟨min (idx (ix2 e (0 : Fin 1))).toInt.toNat (N - 1), by omega⟩

/-- THE GATHER READ AT `(e, c)`. -/
theorem gather_rows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (srcRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin (⟨2, ![N, C]⟩ : Shape).rank) ∈ (rowGatherDims N E C wf).startIndexMap from List.mem_singleton.mpr rfl)]
    have hsi : (rowGatherDims N E C wf).siIdx (ix2 e c) ⟨List.idxOf (0 : Fin (⟨2, ![N, C]⟩ : Shape).rank) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    unfold GatherDims.start
    rw [dif_neg (show ¬ (1 : Fin (⟨2, ![N, C]⟩ : Shape).rank) ∈ (rowGatherDims N E C wf).startIndexMap from one_not_mem rfl)]
    simp only [Nat.zero_add, Nat.add_zero]
    rfl

/-! ## Rows added in -/

/-- The dimension numbers of a scatter of whole rows. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable (wf : ScatterDims.WF ⟨2, ![N, C]⟩ ⟨2, ![E, 1]⟩ ⟨2, ![E, C]⟩ [1] [0] [0] 1) (idx : IVec ⟨2, ![E, 1]⟩ w)

theorem start_row (e : Fin E) (c' : Fin C) :
    (rowScatterDims N E C wf).start (ix2 e c') idx 0 = (idx (ix2 e (0 : Fin 1))).toInt := by
  unfold ScatterDims.start
  rw [dif_pos (show (0 : Fin (⟨2, ![N, C]⟩ : Shape).rank) ∈ (rowScatterDims N E C wf).scatterDimsToOperandDims from List.mem_singleton.mpr rfl)]
  have hsi : (rowScatterDims N E C wf).siIdx (ix2 e c') ⟨List.idxOf (0 : Fin (⟨2, ![N, C]⟩ : Shape).rank) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (e : Fin E) (c' : Fin C) : (rowScatterDims N E C wf).start (ix2 e c') idx 1 = 0 := by
  unfold ScatterDims.start
  rw [dif_neg (show ¬ (1 : Fin (⟨2, ![N, C]⟩ : Shape).rank) ∈ (rowScatterDims N E C wf).scatterDimsToOperandDims from one_not_mem rfl)]

theorem window_row (e : Fin E) (c' : Fin C) : (rowScatterDims N E C wf).window (ix2 e c') 0 = 0 := by
  unfold ScatterDims.window
  rw [dif_neg (show ¬ (0 : Fin (⟨2, ![N, C]⟩ : Shape).rank) ∈ (rowScatterDims N E C wf).sKept from fun h => (mem_kept _ _).mp h (List.mem_singleton.mpr rfl))]

theorem window_col (e : Fin E) (c' : Fin C) : (rowScatterDims N E C wf).window (ix2 e c') 1 = c'.val := by
  unfold ScatterDims.window
  rw [dif_pos (show (1 : Fin (⟨2, ![N, C]⟩ : Shape).rank) ∈ (rowScatterDims N E C wf).sKept from (mem_kept _ _).mpr (one_not_mem rfl))]
  rfl

/-- Update entry `(e, c')` lands on `(n, c)` exactly when it is in column `c` and row `e`'s word is `n`. -/
theorem resultIdx?_rows (e : Fin E) (c' : Fin C) (n : Fin N) (c : Fin C) :
    (rowScatterDims N E C wf).resultIdx? (ix2 e c') idx = some (ix2 n c)
      ↔ c' = c ∧ (idx (ix2 e (0 : Fin 1))).toInt = (n.val : Int) := by
  have hn : n.val < N := n.isLt
  have hc : c.val < C := c.isLt
  have hc' : c'.val < C := c'.isLt
  unfold ScatterDims.resultIdx?
  split
  · rename_i h
    rw [Option.some.injEq]
    have h0 := h 0
    have h1 := h 1
    rw [start_row, window_row] at h0
    rw [start_col, window_col] at h1
    constructor
    · intro hf
      have e0 : ((rowScatterDims N E C wf).start (ix2 e c') idx 0 + ((rowScatterDims N E C wf).window (ix2 e c') 0 : Int)).toNat = n.val :=
        congrArg (fun f : (⟨2, ![N, C]⟩ : Shape).Idx => (f 0).val) hf
      have e1 : ((rowScatterDims N E C wf).start (ix2 e c') idx 1 + ((rowScatterDims N E C wf).window (ix2 e c') 1 : Int)).toNat = c.val :=
        congrArg (fun f : (⟨2, ![N, C]⟩ : Shape).Idx => (f 1).val) hf
      rw [start_row, window_row] at e0
      rw [start_col, window_col] at e1
      exact ⟨Fin.ext (by omega), by omega⟩
    · rintro ⟨rfl, hw⟩
      funext a
      refine Fin.ext ?_
      match a with
      | ⟨0, _⟩ =>
        show ((rowScatterDims N E C wf).start (ix2 e c') idx 0 + ((rowScatterDims N E C wf).window (ix2 e c') 0 : Int)).toNat = n.val
        rw [start_row, window_row]; omega
      | ⟨1, _⟩ =>
        show ((rowScatterDims N E C wf).start (ix2 e c') idx 1 + ((rowScatterDims N E C wf).window (ix2 e c') 1 : Int)).toNat = c'.val
        rw [start_col, window_col]; omega
  · rename_i h
    constructor
    · intro hf; exact absurd hf (by simp)
    · rintro ⟨rfl, hw⟩
      exfalso
      apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [start_row, window_row]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [start_col, window_col]; omega

/-- THE ACCUMULATING SCATTER READ AT `(n, c)`, at the ideal instance. -/
theorem scatterAdd_rows_apply (x : (⟨2, ![N, C]⟩ : Shape).Idx → EReal) (upd : (⟨2, ![E, C]⟩ : Shape).Idx → EReal)
    (n : Fin N) (c : Fin C) :
    Host.scatterAdd (F := Ideal) (φ := .f32) (rowScatterDims N E C wf) x idx upd (ix2 n c)
      = x (ix2 n c) + ∑ e : Fin E, if (idx (ix2 e (0 : Fin 1))).toInt = (n.val : Int) then upd (ix2 e c) else 0 := by
  show x (ix2 n c) + ∑ j ∈ Finset.univ.filter (fun j => (rowScatterDims N E C wf).resultIdx? j idx = some (ix2 n c)), upd j = _
  congr 1
  rw [Finset.sum_filter, sum_idx2]
  refine Finset.sum_congr rfl fun e _ => ?_
  simp only [resultIdx?_rows]
  by_cases hw : (idx (ix2 e (0 : Fin 1))).toInt = (n.val : Int)
  · simp only [hw, and_true, if_true]
    rw [Finset.sum_ite_eq' Finset.univ c (fun c' => upd (ix2 e c'))]
    simp
  · simp only [hw, and_false, if_false, Finset.sum_const_zero]

end Scatter

end Idealize.ShloMosaic.RowOps

end
-- ==== Proof.LibOneHot.lean ====
/-
  A one-hot row times a column, over the extended reals, and the row a signed 32-bit word names.

  A signed 32-bit word `w` with 0 ≤ w < N names row `w` of a table of N rows. Comparing `w` with each of the words
  0, 1, …, N − 1, widening each comparison bit to 32 bits and converting it to a float gives the one-hot row of `w`:
  1 at `w`'s own place and 0 elsewhere, exactly. Its product with any column `col : Fin N → EReal` — the sum over k of
  entry k times `col k` — is `col` at `w`'s row: every other term is 0 · x = 0 and the row's own is 1 · x = x, which hold
  for every extended real, infinite ones included, so nothing here asks for finiteness. This is what a matrix product
  with a one-hot left operand computes, entry by entry.

  `rowOf` clamps the word into [0, N − 1] first — what a gather does with its start index — so that it is a row for
  every word; on a word in range the clamp does nothing (`rowOf_val`). The wrap of a negative index (select between
  `w + c` and `w` on `w < 0`) does nothing to a word in range either (`wrap_of_inRange`).
-/
import Idealize.ShloMosaic.PureOps.Ideal
import Idealize.ShloMosaic.Lib.ValueIdx
import Idealize.ShloMosaic.Lib.Affine

noncomputable section

open scoped BigOperators

namespace Idealize.ShloMosaic.OneHot

open Idealize.ShloMosaic Idealize.ShloMosaic.ValueIdx

variable {N : Nat}

/-- The word, read signed, lies in [0, N): it names a row of a table of N rows. -/
def InRange (N : Nat) (w : BitVec 32) : Prop := 0 ≤ w.toInt ∧ w.toInt < N

/-- The row a word names once clamped into [0, N − 1], as a gather clamps its start index. -/
def rowOf (hN : 0 < N) (w : BitVec 32) : Fin N := ⟨min w.toInt.toNat (N - 1), by omega⟩

/-- A word in range read unsigned is below N. -/
theorem InRange.toNat_lt {w : BitVec 32} (h : InRange N w) : w.toNat < N := by
  obtain ⟨h0, h1⟩ := h
  have := BitVec.toInt_eq_toNat_cond w
  split at this <;> omega

/-- A word in range reads the same signed and unsigned. -/
theorem InRange.toInt_eq {w : BitVec 32} (h : InRange N w) : w.toInt = (w.toNat : Int) := by
  obtain ⟨h0, h1⟩ := h
  have := BitVec.toInt_eq_toNat_cond w
  split at this <;> omega

/-- The row of a word in range is the word itself. -/
theorem rowOf_val (hN : 0 < N) {w : BitVec 32} (h : InRange N w) : (rowOf hN w).val = w.toNat := by
  have hlt := h.toNat_lt
  show min w.toInt.toNat (N - 1) = w.toNat
  rw [h.toInt_eq, Int.toNat_natCast]
  omega

/-- A word in range equals the word of `k < N` exactly when `k` is its row. -/
theorem eq_ofNat_iff (hN : 0 < N) (hN32 : N ≤ 2 ^ 32) {w : BitVec 32} (h : InRange N w) (k : Fin N) :
    w = BitVec.ofNat 32 k.val ↔ k = rowOf hN w := by
  have hk : k.val < N := k.isLt
  constructor
  · intro e
    apply Fin.ext
    rw [rowOf_val hN h, e, BitVec.toNat_ofNat]
    omega
  · intro e
    have : k.val = w.toNat := by rw [e, rowOf_val hN h]
    rw [this, BitVec.ofNat_toNat, BitVec.setWidth_eq]

/-- One entry of the one-hot row: 1 at the word's own row and 0 elsewhere. -/
theorem onehot_entry (hN : 0 < N) (hN32 : N ≤ 2 ^ 32) {w : BitVec 32} (h : InRange N w) (k : Fin N) :
    FloatOps.sitofp (F := Ideal) .f32 ((IntOp.cmpi .eq w (BitVec.ofNat 32 k.val)).setWidth 32)
      = if k = rowOf hN w then (1 : EReal) else 0 := by
  by_cases hk : k = rowOf hN w
  · have e : IntOp.cmpi .eq w (BitVec.ofNat 32 k.val) = 1#1 := IntOp.cmpi_eq.2 ((eq_ofNat_iff hN hN32 h k).2 hk)
    rw [e, if_pos hk]
    show (((1#1 : BitVec 1).setWidth 32).toInt : ℝ) = (1 : EReal)
    rw [show ((1#1 : BitVec 1).setWidth 32).toInt = 1 from by decide]
    simp
  · have e : IntOp.cmpi .eq w (BitVec.ofNat 32 k.val) = 0#1 :=
      eq_zero_of_ne_one fun e1 => hk ((eq_ofNat_iff hN hN32 h k).1 (IntOp.cmpi_eq.1 e1))
    rw [e, if_neg hk]
    show (((0#1 : BitVec 1).setWidth 32).toInt : ℝ) = (0 : EReal)
    rw [show ((0#1 : BitVec 1).setWidth 32).toInt = 0 from by decide]
    simp

/-- THE LAW: the one-hot row of a word in range times a column is the column's entry at the word's row. -/
theorem onehot_sum (hN : 0 < N) (hN32 : N ≤ 2 ^ 32) {w : BitVec 32} (h : InRange N w) (col : Fin N → EReal) :
    ∑ k : Fin N, FloatOps.sitofp (F := Ideal) .f32 ((IntOp.cmpi .eq w (BitVec.ofNat 32 k.val)).setWidth 32) * col k
      = col (rowOf hN w) := by
  rw [Finset.sum_eq_single (rowOf hN w)]
  · rw [onehot_entry hN hN32 h, if_pos rfl, one_mul]
  · intro k _ hk
    rw [onehot_entry hN hN32 h, if_neg hk, zero_mul]
  · intro hn
    exact absurd (Finset.mem_univ _) hn

/-- The wrap of a negative index — the word plus `c` where the word tests below zero, the word itself elsewhere — does
    nothing to a word in range. -/
theorem wrap_of_inRange {w : BitVec 32} (h : InRange N w) (c : BitVec 32) :
    Scalar.select (IntOp.cmpi .slt w 0#32) (IntOp.addi w c) w = w := by
  have e : IntOp.cmpi .slt w 0#32 = 0#1 := eq_zero_of_ne_one fun e1 => by
    have := IntOp.cmpi_slt.1 e1
    rw [show (0#32 : BitVec 32).toInt = 0 from by decide] at this
    exact absurd h.1 (not_le.2 this)
  rw [e, select_zero]

/-- A maximum with the zero word is, read signed, at least 0. -/
theorem maxsi_zero_nonneg (x : BitVec 32) : 0 ≤ (IntOp.maxsi x 0#32).toInt := by
  unfold IntOp.maxsi
  split
  · rename_i h
    rw [BitVec.slt_iff_toInt_lt, show (0#32 : BitVec 32).toInt = 0 from by decide] at h
    exact le_of_lt h
  · exact le_of_eq (by decide)

end Idealize.ShloMosaic.OneHot

end
-- ==== Proof.LibBroadcastInDim.lean ====
/-
  The host's `broadcast_in_dim` read at an index given by coordinates, in the shapes a row-wise or column-wise scale
  or bias takes: a vector of length `a` placed as an `[a, 1]` column (`dims = [0]`) or of length `b` as a `[1, b]`
  row (`dims = [1]`); an `[a, 1]` column repeated across `b` columns and a `[1, b]` row repeated down `a` rows
  (`dims = [0, 1]`); and a scalar spread over any shape (`dims = []`). Each reads the operand at the coordinates the
  result's index has on the axes `dims` names, and at `0` on the operand's unit axes. For every extent.
-/
import Idealize.ShloMosaic.Lib.Pipeline.Value
import Idealize.ShloMosaic.Lib.ValueIdx

namespace Idealize.ShloMosaic.BroadcastInDimAt

open Idealize.ShloMosaic Idealize.ShloMosaic.ValueIdx

variable {α : Type}

/-- A vector as a column: entry `(p, u)` is the vector's entry `p`. -/
theorem vec_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) :=
  broadcastInDim_apply _ h v (ix2 p u) (ix1 p) fun ax => by
    match ax with
    | ⟨0, _⟩ =>
      show p.val = if a = 1 then 0 else p.val
      split
      · have := p.isLt; omega
      · rfl

/-- A vector as a row: entry `(u, q)` is the vector's entry `q`. -/
theorem vec_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) :=
  broadcastInDim_apply _ h v (ix2 u q) (ix1 q) fun ax => by
    match ax with
    | ⟨0, _⟩ =>
      show q.val = if b = 1 then 0 else q.val
      split
      · have := q.isLt; omega
      · rfl

/-- A column repeated across the columns: entry `(p, q)` is the column's entry of row `p`. -/
theorem col_mat_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 p (0 : Fin 1)) :=
  broadcastInDim_apply _ h v (ix2 p q) (ix2 p (0 : Fin 1)) fun ax => by
    match ax with
    | ⟨0, _⟩ =>
      show p.val = if a = 1 then 0 else p.val
      split
      · have := p.isLt; omega
      · rfl
    | ⟨1, _⟩ => rfl

/-- A row repeated down the rows: entry `(p, q)` is the row's entry of column `q`. -/
theorem row_mat_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) :=
  broadcastInDim_apply _ h v (ix2 p q) (ix2 (0 : Fin 1) q) fun ax => by
    match ax with
    | ⟨0, _⟩ => rfl
    | ⟨1, _⟩ =>
      show q.val = if b = 1 then 0 else q.val
      split
      · have := q.isLt; omega
      · rfl

/-- A scalar spread over a shape: every entry is the scalar. -/
theorem scalar_apply {t : Shape} (v : (⟨0, ![]⟩ : Shape).Idx → α)
    (h : (⟨0, ![]⟩ : Shape).BroadcastsInDim t (![] : Fin 0 → Fin t.rank)) (i : t.Idx) :
    broadcastInDim t (![] : Fin 0 → Fin t.rank) h v i = v ix0 :=
  broadcastInDim_apply _ h v i ix0 fun ax => ax.elim0

end Idealize.ShloMosaic.BroadcastInDimAt
-- ==== Proof.RefTake.lean ====
/-
  The rows of the table taken at the row numbers 0, 1, …, 19999 are the table. Row number k is the word of k with
  0 ≤ k < 20000: the wrap of a negative number leaves it alone, both range tests hold, so does their conjunction
  along the one column, the gather's clamp into [0, 19999] is the identity on it, and the final choice keeps the
  gathered row — row k of the table. Nothing is asked of the table's entries.
-/
import proofs.«142728_g83296595738828_cont_9to1_m_210_19_alg».proof.Proof.RefRun
import proofs.«142728_g83296595738828_cont_9to1_m_210_19_alg».proof.Proof.LibRowOps
import proofs.«142728_g83296595738828_cont_9to1_m_210_19_alg».proof.Proof.LibOneHot
import proofs.«142728_g83296595738828_cont_9to1_m_210_19_alg».proof.Proof.LibBroadcastInDim
import Idealize.ShloMosaic.Lib.ReduceAll

noncomputable section

namespace Cert.ReferenceIdeal.RefTake

open Cert.ReferenceIdeal Cert.ReferenceIdeal.Gen Cert.ReferenceIdeal.RefRun Idealize.ShloMosaic Idealize.ShloMosaic.ValueIdx
open Idealize.ShloMosaic.OneHot Idealize.ShloMosaic.RowOps Idealize.ShloMosaic.BroadcastInDimAt

variable {F : FTy → Type} [FloatOps F]

/-- The word of a row number below 20000 lies, read signed, in [0, 20000). -/
theorem word_inRange (k : Fin 20000) : InRange 20000 (BitVec.ofNat 32 k.val) := by
  have hk := k.isLt
  have h1 : (BitVec.ofNat 32 k.val).toNat = k.val := by
    rw [BitVec.toNat_ofNat]; exact Nat.mod_eq_of_lt (by omega)
  have h2 := BitVec.toInt_eq_toNat_cond (BitVec.ofNat 32 k.val)
  rw [h1] at h2
  unfold InRange
  split at h2 <;> omega

/-- Entry k of the row numbers is the word of k. -/
theorem iota_apply (k : Fin 20000) : iotaInDim S20000 32 0 (ix1 k) = BitVec.ofNat 32 k.val := rfl

/-- The wrap leaves a row number in range alone. -/
theorem wrap_apply (w : IVec S20000 32) (k : Fin 20000) (hw : InRange 20000 (w (ix1 k))) : wrap w (ix1 k) = w (ix1 k) :=
  wrap_of_inRange hw 20000#32

/-- The column of wrapped row numbers at (k, u) is the wrapped number k. -/
theorem col_apply (w : IVec S20000 32) (k : Fin 20000) (u : Fin 1) : col w (ix2 k u) = wrap w (ix1 k) :=
  vec_col_apply (wrap w) bcast_S20000_S20000x1_0 k u

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from 1 of an array that is 1 everywhere is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x _ fun i _ => hx i

/-- Every row whose wrapped number is in range passes the range test. -/
theorem inRange_apply (w : IVec S20000 32) (hw : ∀ k : Fin 20000, InRange 20000 (w (ix1 k))) (j : S20000.Idx) :
    inRange w j = 1#1 := by
  unfold inRange
  refine reduce_andi_one _ _ _ _ (fun i => ?_) rfl j
  obtain ⟨k, u, rfl⟩ : ∃ (k : Fin 20000) (u : Fin 1), i = ix2 k u := ⟨i 0, i 1, eq_ix2 i⟩
  have hc : col w (ix2 k u) = w (ix1 k) := (col_apply w k u).trans (wrap_apply w k (hw k))
  show IntOp.andi (IntOp.cmpi .sge (col w (ix2 k u)) _) (IntOp.cmpi .sle (col w (ix2 k u)) _) = 1#1
  rw [hc]
  refine IntOp.andi_eq_one.2 ⟨IntOp.cmpi_sge.2 ?_, IntOp.cmpi_sle.2 ?_⟩
  · exact (hw k).1
  · have := (hw k).2
    show (w (ix1 k)).toInt ≤ (19999#32 : BitVec 32).toInt
    rw [show (19999#32 : BitVec 32).toInt = 19999 from by decide]
    omega

/-- A vector repeated across the columns: entry (p, q) is the vector's entry p. -/
theorem vec_mat_apply {α : Type} {a b : ℕ} (v : (⟨1, ![a]⟩ : Shape).Idx → α)
    (h : (⟨1, ![a]⟩ : Shape).BroadcastsInDim ⟨2, ![a, b]⟩ (![0] : Fin 1 → Fin 2)) (p : Fin a) (q : Fin b) :
    broadcastInDim ⟨2, ![a, b]⟩ (![0] : Fin 1 → Fin 2) h v (ix2 p q) = v (ix1 p) :=
  broadcastInDim_apply _ h v (ix2 p q) (ix1 p) fun ax => by
    match ax with
    | ⟨0, _⟩ =>
      show p.val = if a = 1 then 0 else p.val
      split
      · have := p.isLt; omega
      · rfl

/-- The gathered row k at row numbers in range is the table's row numbered by the word. -/
theorem gather_apply (e : FVec F S20000x128 .f32) (w : IVec S20000 32) (k : Fin 20000) (h : Fin 128)
    (hw : InRange 20000 (w (ix1 k))) :
    Host.gather gather_S20000x128_S20000x1_S20000x128_1_0_n_n_0_1_1128 e (col w) (ix2 k h)
      = e (ix2 (rowOf (by decide : 0 < 20000) (w (ix1 k))) h) := by
  rw [show gather_S20000x128_S20000x1_S20000x128_1_0_n_n_0_1_1128
      = rowGatherDims 20000 20000 128 gather_S20000x128_S20000x1_S20000x128_1_0_n_n_0_1_1128_wf from rfl,
    gather_rows_apply (by decide : 0 < 20000)]
  have hc : col w (ix2 k (0 : Fin 1)) = w (ix1 k) := (col_apply w k 0).trans (wrap_apply w k hw)
  show e (ix2 (rowOf (by decide : 0 < 20000) (col w (ix2 k (0 : Fin 1)))) h) = _
  rw [hc]

/-- THE ROWS TAKEN AT 0, 1, …, 19999 ARE THE TABLE. -/
theorem take_iota (e : FVec F S20000x128 .f32) (k : Fin 20000) (h : Fin 128) :
    take e (iotaInDim S20000 32 0) (ix2 k h) = e (ix2 k h) := by
  have hw : ∀ k : Fin 20000, InRange 20000 (iotaInDim S20000 32 0 (ix1 k)) := fun k => word_inRange k
  unfold take
  rw [select_apply, vec_mat_apply (inRange (iotaInDim S20000 32 0)) bcast_S20000_S20000x128_0 k h,
    inRange_apply _ hw, select_one, gather_apply e _ k h (hw k)]
  congr 2
  apply Fin.ext
  rw [rowOf_val _ (hw k), iota_apply, BitVec.toNat_ofNat]
  exact Nat.mod_eq_of_lt (by have := k.isLt; omega)

end Cert.ReferenceIdeal.RefTake

end
-- ==== Proof.LibPlainDot.lean ====
/-
  A plain matrix product read at an index, at the ideal instance.

  The dimension numbers `DotDims.plain M K N` contract the left operand's second axis with the right
  operand's first: an `M × K` matrix by a `K × N` matrix. Over the extended reals both the kernel's
  matrix product into a zero accumulator and the host's `dot_general` are, at the entry `(i, j)`, the sum
  over `k : Fin K` of `lhs (i, k) * rhs (k, j)`. The library states this sum over the contracted SHAPE's
  index type; here it is re-indexed once, for every `M K N`, over `Fin K`, with both operand indices
  written from coordinates. A printed record whose six lists are those of `DotDims.plain` is that record
  (its well-formedness field is a proposition), so the lemmas apply to it after `rw [show d = .plain _ _ _ from rfl]`.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The contraction of a plain product, re-indexed over `Fin K`. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col M K N _ _)
  exact congrArg₂ (· * ·) (congrArg lhs el) (congrArg rhs er)

variable {M K N}

/-- The kernel's matrix product into a zero accumulator, at `(i, j)`: the sum over `k` of `lhs (i, k) * rhs (k, j)`. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant (F := Ideal) ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j)
      = ∑ k : Fin K, lhs (ix2 i k) * rhs (ix2 k j) := by
  simp only [Host.dotGeneral]
  exact (Ideal.dotGeneral_apply (DotDims.plain M K N) prec _ lhs rhs (ix2 i j)).trans (sum_eq M K N lhs rhs (ix2 i j))

end Idealize.ShloMosaic.PlainDot

end
-- ==== Proof.RefValue.lean ====
/-
  The reference computes the product of the batch with the table. Its matrix product's right operand is the rows of
  the table taken at the row numbers 0, 1, …, 19999, which are the table; so entry (b, h) of the result is the sum over
  the table's rows k of x[b, k] · emb[k, h], over the one index set Fin 20000. Nothing is asked of the entries.
-/
import proofs.«142728_g83296595738828_cont_9to1_m_210_19_alg».proof.Proof.RefOut
import proofs.«142728_g83296595738828_cont_9to1_m_210_19_alg».proof.Proof.RefTake
import proofs.«142728_g83296595738828_cont_9to1_m_210_19_alg».proof.Proof.LibPlainDot
import proofs.«142728_g83296595738828_cont_9to1_m_210_19_alg».proof.Proof.Spec

noncomputable section

namespace Cert.ReferenceIdeal.RefValue

open Idealize.ShloMosaic Idealize.ShloMosaic.TcCoe Idealize.SL.Sem Cert.ReferenceIdeal
open Idealize.ShloMosaic.ValueIdx

/-- The operations' composed term is the product. -/
theorem out_eq_embed (x : FVec Ideal S1024x20000 .f32) (e : FVec Ideal S20000x128 .f32) :
    RefRun.out x e = Cert.Embed.embed x e := by
  funext i
  obtain ⟨b, h, rfl⟩ : ∃ (b : Fin 1024) (h : Fin 128), i = ix2 b h := ⟨i 0, i 1, eq_ix2 i⟩
  rw [Cert.Embed.embed_ix2]
  unfold RefRun.out Cert.Embed.entry
  rw [show dot_S1024x20000_S20000x128_S1024x128_1_0_0_1_n_n = DotDims.plain 1024 20000 128 from rfl,
    PlainDot.dotGeneral_apply]
  exact Finset.sum_congr rfl fun k _ => by rw [RefTake.take_iota]

/-- On every device, from any memory with zero counters: every weakly fair execution of the reference's @main terminates
    with its result buffer at the product of the two arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = Cert.Embed.embed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c => ⟨((h c).1).trans (out_eq_embed _ _), (h c).2⟩) (RefRun.run (F := Ideal) m ρ)

end Cert.ReferenceIdeal.RefValue

end
-- ==== Proof.lean ====
/-
  The certificate of a gene-embedding product: a batch of 1024 expression rows x, f32[1024, 20000], times a table
  emb, f32[20000, 128], of gene embeddings.

  THE KERNEL reads x through its transpose (one host operation before the region) and walks the 20000 genes in ten
  stretches of 2000. At each grid point the body contracts the point's [2000, 1024] block of the transpose with the
  point's [2000, 128] block of the table over the genes of the stretch; the first point stores that product into the
  one [1024, 128] output block, every later point adds its product to what the block holds, and the block is written
  back once, after the last point. THE REFERENCE takes the rows of the table at the row numbers 0 … 19999 — the table
  itself — and multiplies x with it in one matrix product.

  At the ideal instance both results are, at (b, h), the sum over the genes k of x[b, k] · emb[k, h]
  (Proof/Spec.lean): the change of float format in front of the matrix unit is the identity, the kernel's sum is the
  same sum cut into ten consecutive blocks, and regrouping a finite sum needs only commutativity and associativity
  of addition, which the extended reals have; so the precondition is never opened.

  The frames of the two kernel programs are proved from the body's run at a grid point (Proof/BodyRun.lean, one
  theorem per case of the body's two conditionals) and the proof data that names the running total
  (Proof/Body.lean), once for each instance of the program text; the reference's run is the composition of its
  host operations (Proof/RefRun.lean, Proof/RefOut.lean). The ideal pass rewrote nothing, so the kernel's
  idealization is its own text.
-/
import proofs.«142728_g83296595738828_cont_9to1_m_210_19_alg».proof.Defs
import proofs.«142728_g83296595738828_cont_9to1_m_210_19_alg».proof.Proof.Gen.Kernel
import proofs.«142728_g83296595738828_cont_9to1_m_210_19_alg».proof.Proof.Gen.KernelIdeal
import proofs.«142728_g83296595738828_cont_9to1_m_210_19_alg».proof.Proof.Gen.ReferenceIdeal
import proofs.«142728_g83296595738828_cont_9to1_m_210_19_alg».proof.Proof.Gen.Pre_finite_inputs
import proofs.«142728_g83296595738828_cont_9to1_m_210_19_alg».proof.Proof.WordBody
import proofs.«142728_g83296595738828_cont_9to1_m_210_19_alg».proof.Proof.Body
import proofs.«142728_g83296595738828_cont_9to1_m_210_19_alg».proof.Proof.KValue
import proofs.«142728_g83296595738828_cont_9to1_m_210_19_alg».proof.Proof.RefValue
import Idealize.ShloMosaic.Adequacy
import Idealize.ShloMosaic.Init

noncomputable section

namespace Cert.Proof

open Idealize.ShloMosaic Idealize.SL.Sem

/-- The word-level kernel terminates and leaves its two arguments unchanged. -/
theorem frame_kernel : Cert.frame_Kernel := fun m ρ _ => Cert.Kernel.Body.frame (F := Bits) m ρ

/-- So does its reading at the ideal instance. -/
theorem frame_kernelIdeal : Cert.frame_KernelIdeal := fun m ρ _ => Cert.KernelIdeal.Body.frame (F := Ideal) m ρ

/-- The reference terminates and leaves its arguments unchanged: its run with the result dropped. -/
theorem frame_reference : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- From memories that agree on x and emb both programs end with the product of x and emb (`Cert.Embed.embed`) in
    their result arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
